-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x2048x2048 : Shape := ⟨4, ![16, 1, 2048, 2048]⟩
abbrev S2048x2048 : Shape := ⟨2, ![2048, 2048]⟩
abbrev S_ : Shape := ⟨0, ![]⟩

class Facts : Prop where
  bcast_S_S16x1x2048x2048 : S_.BroadcastsInDim S16x1x2048x2048 (![] : Fin 0 → Fin S16x1x2048x2048.rank)
  reducesTo_S16x1x2048x2048_S_d0_1_2_3 : S16x1x2048x2048.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16x1x2048x2048 .f32) (main_arg1 : FVec F S16x1x2048x2048 .f32) (main_arg2 : FVec F S2048x2048 .f32) : IVec S_ 1 :=
  let main_v0 : FVec F S16x1x2048x2048 .f32 := Host.absf main_arg0
  let main_cst : FVec F S_ .f32 := constant S_ .f32 0x7F800000#32
  let main_v1 : FVec F S16x1x2048x2048 .f32 := broadcastInDim S16x1x2048x2048 ![] bcast_S_S16x1x2048x2048 main_cst
  let main_v2 : IVec S16x1x2048x2048 1 := cmpf .olt main_v0 main_v1
  let main_c : IVec S_ 1 := constantI S_ 1 1#1
  let main_v3 : IVec S_ 1 := (fun x v => Host.reduce IntOp.andi x v reducesTo_S16x1x2048x2048_S_d0_1_2_3 h_S_) main_v2 main_c
  let main_v4 : FVec F S16x1x2048x2048 .f32 := Host.absf main_arg1
  let main_cst_0 : FVec F S_ .f32 := constant S_ .f32 0x7F800000#32
  let main_v5 : FVec F S16x1x2048x2048 .f32 := broadcastInDim S16x1x2048x2048 ![] bcast_S_S16x1x2048x2048 main_cst_0
  let main_v6 : IVec S16x1x2048x2048 1 := cmpf .olt main_v4 main_v5
  let main_c_1 : IVec S_ 1 := constantI S_ 1 1#1
  let main_v7 : IVec S_ 1 := (fun x v => Host.reduce IntOp.andi x v reducesTo_S16x1x2048x2048_S_d0_1_2_3 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S16x1x2048x2048 : Shape := ⟨4, ![16, 1, 2048, 2048]⟩
abbrev S2048x2048 : Shape := ⟨2, ![2048, 2048]⟩
abbrev S1x1x256x2048 : Shape := ⟨4, ![1, 1, 256, 2048]⟩
abbrev S1x1x8x2048 : Shape := ⟨4, ![1, 1, 8, 2048]⟩
abbrev S256x2048 : Shape := ⟨2, ![256, 2048]⟩
abbrev S1x1x1x2048 : Shape := ⟨4, ![1, 1, 1, 2048]⟩
abbrev S1x2048 : Shape := ⟨2, ![1, 2048]⟩

abbrev nBuf : Space → Nat
  | .hbm => 4
  | .vmem => 12
  | .smem => 0
  | _ => 0

abbrev bufTy : (tb : Table) → Fin (tcTables nBuf tb) → BufTy
  | .hbm, ⟨0, _⟩ => ⟨S16x1x2048x2048, .f32⟩
  | .hbm, ⟨1, _⟩ => ⟨S16x1x2048x2048, .f32⟩
  | .hbm, ⟨2, _⟩ => ⟨S2048x2048, .f32⟩
  | .hbm, ⟨3, _⟩ => ⟨S16x1x2048x2048, .f32⟩
  | .local _ .vmem, ⟨0, _⟩ => ⟨S1x1x256x2048, .f32⟩
  | .local _ .vmem, ⟨1, _⟩ => ⟨S1x1x256x2048, .f32⟩
  | .local _ .vmem, ⟨2, _⟩ => ⟨S1x1x8x2048, .f32⟩
  | .local _ .vmem, ⟨3, _⟩ => ⟨S1x1x8x2048, .f32⟩
  | .local _ .vmem, ⟨4, _⟩ => ⟨S1x1x8x2048, .f32⟩
  | .local _ .vmem, ⟨5, _⟩ => ⟨S1x1x8x2048, .f32⟩
  | .local _ .vmem, ⟨6, _⟩ => ⟨S1x1x256x2048, .f32⟩
  | .local _ .vmem, ⟨7, _⟩ => ⟨S1x1x256x2048, .f32⟩
  | .local _ .vmem, ⟨8, _⟩ => ⟨S256x2048, .f32⟩
  | .local _ .vmem, ⟨9, _⟩ => ⟨S256x2048, .f32⟩
  | .local _ .vmem, ⟨10, _⟩ => ⟨S1x1x256x2048, .f32⟩
  | .local _ .vmem, ⟨11, _⟩ => ⟨S1x1x256x2048, .f32⟩
  | _, _ => ⟨S16x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c8_i32 : BitVec 32 := 8#32
  let v1 : BitVec 32 := Scalar.subi v0 c8_i32
  let c2048_i32 : BitVec 32 := 2048#32
  let c0_i32 : BitVec 32 := 0#32
  let v2 : BitVec 1 := Scalar.cmpi .eq c2048_i32 c0_i32
  let c1_i32 : BitVec 32 := 1#32
  let v3 : BitVec 32 := Scalar.select v2 c1_i32 c2048_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c8_i32_3 : BitVec 32 := 8#32
  let v12 : BitVec 32 := Scalar.divsi v11 c8_i32_3
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi v11 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c0_i32_10 : BitVec 32 := 0#32
  let c0_i32_11 : BitVec 32 := 0#32
  let c0_i32_12 : BitVec 32 := 0#32
  ![arg1.toNat, c0_i32_10.toNat, v28.toNat, c0_i32_11.toNat]

def cc0_transform_2 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c256_i32_0 : BitVec 32 := 256#32
  let v1 : BitVec 32 := Scalar.addi v0 c256_i32_0
  let c2048_i32 : BitVec 32 := 2048#32
  let c0_i32 : BitVec 32 := 0#32
  let v2 : BitVec 1 := Scalar.cmpi .eq c2048_i32 c0_i32
  let c1_i32 : BitVec 32 := 1#32
  let v3 : BitVec 32 := Scalar.select v2 c1_i32 c2048_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 32 := Scalar.divsi v11 c8_i32
  let c0_i32_4 : BitVec 32 := 0#32
  let v13 : BitVec 1 := Scalar.cmpi .sgt v11 c0_i32_4
  let v14 : BitVec 32 := Scalar.extui v13
  let c0_i32_5 : BitVec 32 := 0#32
  let v15 : BitVec 1 := Scalar.cmpi .slt v11 c0_i32_5
  let v16 : BitVec 32 := Scalar.extui v15
  let v17 : BitVec 32 := Scalar.subi v14 v16
  let c0_i32_6 : BitVec 32 := 0#32
  let v18 : BitVec 1 := Scalar.cmpi .sgt c8_i32 c0_i32_6
  let v19 : BitVec 32 := Scalar.extui v18
  let c0_i32_7 : BitVec 32 := 0#32
  let v20 : BitVec 1 := Scalar.cmpi .slt c8_i32 c0_i32_7
  let v21 : BitVec 32 := Scalar.extui v20
  let v22 : BitVec 32 := Scalar.subi v19 v21
  let v23 : BitVec 1 := Scalar.cmpi .ne v17 v22
  let v24 : BitVec 32 := Scalar.remsi v11 c8_i32
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let c0_i32_10 : BitVec 32 := 0#32
  let c0_i32_11 : BitVec 32 := 0#32
  let c0_i32_12 : BitVec 32 := 0#32
  ![arg1.toNat, c0_i32_10.toNat, v28.toNat, c0_i32_11.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  inb_S1x1x8x2048_S1x1x1x2048_0_0_7_0 : ∀ a, (![0, 0, 7, 0] : Fin 4 → Nat) a + S1x1x1x2048.size a ≤ S1x1x8x2048.size a
  h_S1x1x1x2048 : 0 < S1x1x1x2048.numel
  shapeCasts_S1x1x1x2048_S1x2048 : S1x1x1x2048.ShapeCasts S1x2048
  inb_S1x1x8x2048_S1x1x1x2048_0_0_0_0 : ∀ a, (![0, 0, 0, 0] : Fin 4 → Nat) a + S1x1x1x2048.size a ≤ S1x1x8x2048.size a
  shapeCasts_S1x2048_S1x2048 : S1x2048.ShapeCasts S1x2048
  broadcasts_S1x2048_S256x2048 : S1x2048.Broadcasts S256x2048
  iota_S256x2048_d0_w32 : S256x2048.Iotas .tc 32 [0]
  rotates_S256x2048_d0 : S256x2048.Rotates 0 none
  rotates_S256x2048_d1 : S256x2048.Rotates 1 none
  inb_S256x2048_S256x2048_0_0 : ∀ a, (![0, 0] : Fin 2 → Nat) a + S256x2048.size a ≤ S256x2048.size a
  h_S256x2048 : 0 < S256x2048.numel
  shapeCasts_S256x2048_S1x1x256x2048 : S256x2048.ShapeCasts S1x1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x2048.size a ≤ S16x1x2048x2048.size a
  hwx0_0 : ∀ i : grid0.Coords, EltTy.bits .f32 = 32 ∨ (Rect.block (s := S16x1x2048x2048) S1x1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x2048.size a ≤ S16x1x2048x2048.size a
  hwx0_1 : ∀ i : grid0.Coords, EltTy.bits .f32 = 32 ∨ (Rect.block (s := S16x1x2048x2048) S1x1x8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x2048.size a ≤ S16x1x2048x2048.size a
  hwx0_2 : ∀ i : grid0.Coords, EltTy.bits .f32 = 32 ∨ (Rect.block (s := S16x1x2048x2048) S1x1x8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S16x1x2048x2048.size a
  hwx0_3 : ∀ i : grid0.Coords, EltTy.bits .f32 = 32 ∨ (Rect.block (s := S16x1x2048x2048) S1x1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .f32 = 32 ∨ (Rect.block (s := S2048x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S16x1x2048x2048.size a
  hwx0_5 : ∀ i : grid0.Coords, EltTy.bits .f32 = 32 ∨ (Rect.block (s := S16x1x2048x2048) S1x1x256x2048.size (cc0_transform_5 i) (hinb0_5 i)).WholeWords (EltTy.packing .f32)

variable [Facts₀]

abbrev win0_0 : Pipeline.Window sig grid0 :=
  Pipeline.Window.ofSpec (Memref.whole main_arg0) S1x1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1x2048x2048 : Shape := ⟨4, ![16, 1, 2048, 2048]⟩
abbrev S2048x2048 : Shape := ⟨2, ![2048, 2048]⟩
abbrev S_ : Shape := ⟨0, ![]⟩
abbrev S16x1x1x2048 : Shape := ⟨4, ![16, 1, 1, 2048]⟩
abbrev S16x1x2047x2048 : Shape := ⟨4, ![16, 1, 2047, 2048]⟩
abbrev S16x1x2048x1 : Shape := ⟨4, ![16, 1, 2048, 1]⟩
abbrev S16x1x2048x2047 : Shape := ⟨4, ![16, 1, 2048, 2047]⟩
abbrev S1x1x2048x2048 : Shape := ⟨4, ![1, 1, 2048, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16x1x2048x2048, .f32⟩
  | .hbm, ⟨1, _⟩ => ⟨S16x1x2048x2048, .f32⟩
  | .hbm, ⟨2, _⟩ => ⟨S2048x2048, .f32⟩
  | .hbm, ⟨3, _⟩ => ⟨S_, .f32⟩
  | .hbm, ⟨4, _⟩ => ⟨S16x1x2048x2048, .f32⟩
  | .hbm, ⟨5, _⟩ => ⟨S16x1x1x2048, .f32⟩
  | .hbm, ⟨6, _⟩ => ⟨S16x1x2047x2048, .f32⟩
  | .hbm, ⟨7, _⟩ => ⟨S16x1x2048x2048, .f32⟩
  | .hbm, ⟨8, _⟩ => ⟨S16x1x2048x2048, .f32⟩
  | .hbm, ⟨9, _⟩ => ⟨S16x1x2047x2048, .f32⟩
  | .hbm, ⟨10, _⟩ => ⟨S16x1x1x2048, .f32⟩
  | .hbm, ⟨11, _⟩ => ⟨S16x1x2048x2048, .f32⟩
  | .hbm, ⟨12, _⟩ => ⟨S16x1x2048x2048, .f32⟩
  | .hbm, ⟨13, _⟩ => ⟨S16x1x2048x1, .f32⟩
  | .hbm, ⟨14, _⟩ => ⟨S16x1x2048x2047, .f32⟩
  | .hbm, ⟨15, _⟩ => ⟨S16x1x2048x2048, .f32⟩
  | .hbm, ⟨16, _⟩ => ⟨S16x1x2048x2048, .f32⟩
  | .hbm, ⟨17, _⟩ => ⟨S16x1x2048x2047, .f32⟩
  | .hbm, ⟨18, _⟩ => ⟨S16x1x2048x1, .f32⟩
  | .hbm, ⟨19, _⟩ => ⟨S16x1x2048x2048, .f32⟩
  | .hbm, ⟨20, _⟩ => ⟨S16x1x2048x2048, .f32⟩
  | .hbm, ⟨21, _⟩ => ⟨S_, .f32⟩
  | .hbm, ⟨22, _⟩ => ⟨S16x1x2048x2048, .f32⟩
  | .hbm, ⟨23, _⟩ => ⟨S16x1x2048x2048, .f32⟩
  | .hbm, ⟨24, _⟩ => ⟨S16x1x2048x2048, .f32⟩
  | .hbm, ⟨25, _⟩ => ⟨S_, .f32⟩
  | .hbm, ⟨26, _⟩ => ⟨S16x1x2048x2048, .f32⟩
  | .hbm, ⟨27, _⟩ => ⟨S16x1x2048x2048, .i1⟩
  | .hbm, ⟨28, _⟩ => ⟨S_, .f32⟩
  | .hbm, ⟨29, _⟩ => ⟨S16x1x2048x2048, .f32⟩
  | .hbm, ⟨30, _⟩ => ⟨S16x1x2048x2048, .f32⟩
  | .hbm, ⟨31, _⟩ => ⟨S_, .f32⟩
  | .hbm, ⟨32, _⟩ => ⟨S16x1x2048x2048, .f32⟩
  | .hbm, ⟨33, _⟩ => ⟨S16x1x2048x2048, .f32⟩
  | .hbm, ⟨34, _⟩ => ⟨S16x1x2048x2048, .f32⟩
  | .hbm, ⟨35, _⟩ => ⟨S16x1x2048x2048, .f32⟩
  | .hbm, ⟨36, _⟩ => ⟨S_, .f32⟩
  | .hbm, ⟨37, _⟩ => ⟨S2048x2048, .f32⟩
  | .hbm, ⟨38, _⟩ => ⟨S2048x2048, .i1⟩
  | .hbm, ⟨39, _⟩ => ⟨S1x1x2048x2048, .i1⟩
  | .hbm, ⟨40, _⟩ => ⟨S16x1x2048x2048, .i1⟩
  | .hbm, ⟨41, _⟩ => ⟨S16x1x2048x2048, .i1⟩
  | .hbm, ⟨42, _⟩ => ⟨S16x1x2048x2048, .i1⟩
  | .hbm, ⟨43, _⟩ => ⟨S16x1x2048x2048, .f32⟩
  | .hbm, ⟨44, _⟩ => ⟨S_, .f32⟩
  | .hbm, ⟨45, _⟩ => ⟨S16x1x2048x2048, .f32⟩
  | .hbm, ⟨46, _⟩ => ⟨S16x1x2048x2048, .f32⟩
  | .hbm, ⟨47, _⟩ => ⟨S_, .f32⟩
  | .hbm, ⟨48, _⟩ => ⟨S16x1x2048x2048, .f32⟩
  | .hbm, ⟨49, _⟩ => ⟨S16x1x2048x2048, .f32⟩
  | .hbm, ⟨50, _⟩ => ⟨S16x1x2048x2048, .f32⟩
  | _, _ => ⟨S16x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_call2_v0 : Ref sig .tc := ⟨.hbm, 13, rfl⟩
abbrev main_call2_v1 : Ref sig .tc := ⟨.hbm, 14, rfl⟩
abbrev main_v5 : Ref sig .tc := ⟨.hbm, 15, rfl⟩
abbrev main_v6 : Ref sig .tc := ⟨.hbm, 16, rfl⟩
abbrev main_call3_v0 : Ref sig .tc := ⟨.hbm, 17, rfl⟩
abbrev main_call3_v1 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  bcast_S_S16x1x2048x2048 : S_.BroadcastsInDim S16x1x2048x2048 (![] : Fin 0 → Fin S16x1x2048x2048.rank)
  slices_S16x1x2048x2048_S16x1x1x2048_0_0_2047_0 : S16x1x2048x2048.Slices ![0, 0, 2047, 0] S16x1x1x2048
  slices_S16x1x2048x2048_S16x1x2047x2048_0_0_0_0 : S16x1x2048x2048.Slices ![0, 0, 0, 0] S16x1x2047x2048
  concatenates_S16x1x1x2048_S16x1x2047x2048_S16x1x2048x2048_d2 : Shape.Concatenates [S16x1x1x2048, S16x1x2047x2048] S16x1x2048x2048 2
  slices_S16x1x2048x2048_S16x1x2047x2048_0_0_1_0 : S16x1x2048x2048.Slices ![0, 0, 1, 0] S16x1x2047x2048
  slices_S16x1x2048x2048_S16x1x1x2048_0_0_0_0 : S16x1x2048x2048.Slices ![0, 0, 0, 0] S16x1x1x2048
  concatenates_S16x1x2047x2048_S16x1x1x2048_S16x1x2048x2048_d2 : Shape.Concatenates [S16x1x2047x2048, S16x1x1x2048] S16x1x2048x2048 2
  slices_S16x1x2048x2048_S16x1x2048x1_0_0_0_2047 : S16x1x2048x2048.Slices ![0, 0, 0, 2047] S16x1x2048x1
  slices_S16x1x2048x2048_S16x1x2048x2047_0_0_0_0 : S16x1x2048x2048.Slices ![0, 0, 0, 0] S16x1x2048x2047
  concatenates_S16x1x2048x1_S16x1x2048x2047_S16x1x2048x2048_d3 : Shape.Concatenates [S16x1x2048x1, S16x1x2048x2047] S16x1x2048x2048 3
  slices_S16x1x2048x2048_S16x1x2048x2047_0_0_0_1 : S16x1x2048x2048.Slices ![0, 0, 0, 1] S16x1x2048x2047
  slices_S16x1x2048x2048_S16x1x2048x1_0_0_0_0 : S16x1x2048x2048.Slices ![0, 0, 0, 0] S16x1x2048x1
  concatenates_S16x1x2048x2047_S16x1x2048x1_S16x1x2048x2048_d3 : Shape.Concatenates [S16x1x2048x2047, S16x1x2048x1] S16x1x2048x2048 3
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S16x1x2048x2048_0_1_2_3 : S1x1x2048x2048.BroadcastsInDim S16x1x2048x2048 (![0, 1, 2, 3] : Fin 4 → Fin S16x1x2048x2048.rank)

variable [Facts₀]

class Facts : Prop extends Facts₀ where

variable [Facts]
-- ==== Proof.KBody.lean ====
/-
  The kernel body, run once on whole staging buffers.

  At a grid point the body reads five blocks — the 256-row tile of the spin array, the 8-row block
  just above it (only its last row), the 8-row block just below it (only its first row), the tile
  of the acceptance draws and the tile of the dropout draws — and overwrites the whole 256-row
  output block with one store.  What that store leaves is named `tileOut`: a function of the five
  blocks alone.  The triple below says that the body, started with the five input buffers at given
  contents and the output buffer at any contents, ends with the inputs untouched and the output
  buffer at `tileOut` of them.
-/
import proofs.«163609_j47450798686485_2_alg».proof.Proof.Gen.Kernel.Launch
import proofs.«163609_j47450798686485_2_alg».proof.Proof.Gen.Kernel.Skeleton
import proofs.«163609_j47450798686485_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body loads and stores through -/

/-- A whole 1×1×256×2048 block. -/
abbrev rTile : Rect S1x1x256x2048 := Rect.unit (s := S1x1x256x2048) ![0, 0, 0, 0] S1x1x256x2048.size inb_S1x1x256x2048_S1x1x256x2048_0_0_0_0
/-- Row 7 of an 8-row block: the row just above a tile. -/
abbrev rAbove : Rect S1x1x8x2048 := Rect.unit (s := S1x1x8x2048) ![0, 0, 7, 0] S1x1x1x2048.size inb_S1x1x8x2048_S1x1x1x2048_0_0_7_0
/-- Row 0 of an 8-row block: the row just below a tile. -/
abbrev rBelow : Rect S1x1x8x2048 := Rect.unit (s := S1x1x8x2048) ![0, 0, 0, 0] S1x1x1x2048.size inb_S1x1x8x2048_S1x1x1x2048_0_0_0_0
/-- A whole 256×2048 block. -/
abbrev rDrop : Rect S256x2048 := Rect.unit (s := S256x2048) ![0, 0] S256x2048.size inb_S256x2048_S256x2048_0_0

/-! ## What the body leaves in the output buffer -/

/-- The output block as a function of the five input blocks: the body's single store, whose payload
    is the arithmetic of the tile, of the two neighbouring rows and of the two blocks of draws. -/
def tileOut (x0 : Vec F S1x1x256x2048 .f32) (x1 x2 : Vec F S1x1x8x2048 .f32) (x3 : Vec F S1x1x256x2048 .f32)
    (x4 : Vec F S256x2048 .f32) : Vec F S1x1x256x2048 .f32 :=
  View.canon [⟨rTile, k0_pay1 (k0_pay2 (View.ld x0 rTile)) (k0_pay3 (View.ld x0 rTile) (View.ld x1 rAbove) (View.ld x2 rBelow))
    (View.ld x3 rTile) (View.ld x4 rDrop)⟩]

/-- The one store covers the output block. -/
theorem tileOut_cover (p0 : Vec F S1x1x256x2048 .f32) (y : S1x1x256x2048.Idx) :
    ∃ pc ∈ ([⟨rTile, p0⟩] : List (View.Piece (Elt F) S1x1x256x2048 .f32)), y ∈ pc.1.set :=
  ⟨_, List.mem_singleton_self _, View.mem_set_unit_zero (by funext a; fin_cases a <;> rfl) inb_S1x1x256x2048_S1x1x256x2048_0_0_0_0 y⟩

/-! ## The body's triple -/

set_option maxHeartbeats 1000000 in
/-- The body on whole staging buffers: inputs at read contents `x0 … x4`, the output at anything; it ends
    with the inputs as they were and the output at `tileOut`. -/
theorem sound_kernel (c : Dev nD) (E : Set ℕ) (i : grid0.Coords)
    (arg2 : Memref sig .tc .vmem S1x1x256x2048 .f32) (harg2 : arg2.IsWhole)
    (arg3 : Memref sig .tc .vmem S1x1x8x2048 .f32) (harg3 : arg3.IsWhole)
    (arg4 : Memref sig .tc .vmem S1x1x8x2048 .f32) (harg4 : arg4.IsWhole)
    (arg5 : Memref sig .tc .vmem S1x1x256x2048 .f32) (harg5 : arg5.IsWhole)
    (arg6 : Memref sig .tc .vmem S256x2048 .f32) (harg6 : arg6.IsWhole)
    (arg7 : Memref sig .tc .vmem S1x1x256x2048 .f32) (harg7 : arg7.IsWhole)
    (x0 : Vec F S1x1x256x2048 .f32) (x1 x2 : Vec F S1x1x8x2048 .f32) (x3 : Vec F S1x1x256x2048 .f32) (x4 : Vec F S256x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E
          (cc0__ising_kernel i arg2 harg2 arg3 harg3 arg4 harg4 arg5 harg5 arg6 harg6 arg7 harg7) K := by
  simp only [cc0__ising_kernel_eq_skeleton]; unfold cc0__ising_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_cover _)

end Cert.Kernel.Hand

end
-- ==== Proof.KFrame.lean ====
/-
  The launch: the whole program runs, and where every array ends.

  The program is one pipelined region over an 8 × 16 grid.  Three of its six windows — the tile and
  the two 8-row neighbour blocks — are windows on ONE array, the spins; the draws and the dropout
  draws have a window each, and the result has the output window.  Because one array is read through
  three windows, its points-to is dealt among them in three shares (a half, a quarter, a quarter);
  the other arrays are held whole.

  The proof data say what each staging buffer holds after the body at a point: an input buffer its
  block of the array, the output buffer `tileOut` of the five input blocks.  The body obligation is
  the triple of the body at every point, and the launch theorem for windows that may share an array
  then gives the run: every execution ends, with each array at the contents the data compute — an
  input array unchanged, the result array overwritten block by block by what the body left.
-/
import proofs.«163609_j47450798686485_2_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers as the region finds them: as launched, the program being the region alone. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The shares the three windows on the spin array hold of it: a half, and two quarters. -/
abbrev shareOf : Fin 6 → PosShare TreeShare
  | ⟨0, _⟩ => fullShare.left
  | ⟨1, _⟩ => fullShare.right.left
  | ⟨2, _⟩ => fullShare.right.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = tileOut (iblk m c 0 t) (iblk m c 1 t) (iblk m c 2 t) (iblk m c 3 t) (iblk m c 4 t) := by dsimp only [dats]

/-! ## What the body finds in each input buffer

An input window's current buffer holds its block of the array at every point: just fetched, or — for
the dropout window, whose block index moves only with the row of the grid — fetched at an earlier
point of the same row and left in place by the body since. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The run of the whole program, and the frame.

  The spin array's points-to, whole at launch, is cut in three for the three windows that read it; the
  other three arrays go to their windows whole.  With that, the launch theorem for a pipeline whose
  windows may share an array gives: every execution of the program ends, and each window's array then
  holds what the proof data compute for it.  For the five input windows that is the array as launched
  — the frame; for the output window it is the launch contents overwritten, block by block, by what
  the body left at each grid point.
-/
import proofs.«163609_j47450798686485_2_alg».proof.Proof.KFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt to the windows -/

/-- The four distinct buffers behind the six windows' arrays, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_arg2) ↦{fullShare} W main_arg2)
          ∗ (((c.tc : Thread nD τ).loc main_v0) ↦{fullShare} W main_v0)) := by
  unfold Pipeline.arrBufs
  exact bigSep_eq_bigSepL_of_eq [main_arg0, main_arg1, main_arg2, main_v0] (by decide) (by decide) _

/-- The windows' arrays as the proof data hold them at entry: each a whole buffer at its launch contents, at the
    window's share. -/
theorem arrays_eq (c : Dev nD) :
    (dats m 0 c).arrays (fun w => (dats m 0 c).arrAt w 0)
      = bigSep Finset.univ fun w : Fin 6 =>
          (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The spin array's points-to cut into a half and two quarters for its three windows; the rest whole. -/
theorem arrays_of_arrBufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq, arrays_eq, bigSep_W0]
  iintro ⟨Hx, Hr, Hd, Ho⟩
  ihave Hx := (pointsTo_share (PosShare.mem_left_op_right fullShare)).1 $$ Hx
  icases Hx with ⟨Hx0, Hx12⟩
  ihave Hx12 := (pointsTo_share (PosShare.mem_left_op_right fullShare.right)).1 $$ Hx12
  icases Hx12 with ⟨Hx1, Hx2⟩
  isplitl [Hx0]; · iexact Hx0
  isplitl [Hx1]; · iexact Hx1
  isplitl [Hx2]; · iexact Hx2
  isplitl [Hr]; · iexact Hr
  isplitl [Hd]; · iexact Hd
  iexact Ho

/-! ## The run -/

/-- The invariant between points is the same at every point: the scoped buffers that are no staging buffer. -/
theorem inv_eq (c : Dev nD) (t : Fin (cfg0.N + 1)) :
    (dats m 0 c).Φ t = Pipeline.scopedRest (Ix := Unit) (Name := ℕ) (U := UR sig nD τ) (Lvl := ℕ) (Val := Elt F) (cfgs 0).spec c := rfl

set_option backward.isDefEq.respectTransparency.types false in
/-- Every execution of the program ends, and every window's array then holds what the proof data compute. -/
theorem run_main : θ_run defs (onTc (τ := τ) (main (F := F))) ⟨m, fun _ => 0, ρ⟩
    (fun r => ∀ (c : Dev nD) (w : Fin cfg0.W),
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (arrays_of_arrBufs m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by rw [inv_eq]; iintro ⟨-, H⟩; iexact H)
    (fun c => by rw [inv_eq]; iintro H; isplitr; · iempintro
                 iexact H)
    (fun _ _ => True)
    (fun c s' => by iintro ⟨-, -, HSI⟩; imodintro; isplitr; · ipureintro; trivial
                    iexact HSI)
    (fun s h c w => (h c).1 w)

/-! ## The frame -/

/-- The three argument arrays end as launched: each is the array of an input window, which nothing writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 3).trans (((dats m 0 c).arrAt_in 3 rfl _).trans (A_eq m c 3)),
     (h c 4).trans (((dats m 0 c).arrAt_in 4 rfl _).trans (A_eq m c 4))⟩) (run_main m ρ)

end Cert.Kernel.Hand

end
-- ==== Proof.Body.lean ====
/-
  The kernel body, run once on whole staging buffers.

  At a grid point the body reads five blocks — the 256-row tile of the spin array, the 8-row block
  just above it (only its last row), the 8-row block just below it (only its first row), the tile
  of the acceptance draws and the tile of the dropout draws — and overwrites the whole 256-row
  output block with one store.  What that store leaves is named `tileOut`: a function of the five
  blocks alone.  The triple below says that the body, started with the five input buffers at given
  contents and the output buffer at any contents, ends with the inputs untouched and the output
  buffer at `tileOut` of them.
-/
import proofs.«163609_j47450798686485_2_alg».proof.Proof.Gen.KernelIdeal.Launch
import proofs.«163609_j47450798686485_2_alg».proof.Proof.Gen.KernelIdeal.Skeleton
import proofs.«163609_j47450798686485_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body loads and stores through -/

/-- A whole 1×1×256×2048 block. -/
abbrev rTile : Rect S1x1x256x2048 := Rect.unit (s := S1x1x256x2048) ![0, 0, 0, 0] S1x1x256x2048.size inb_S1x1x256x2048_S1x1x256x2048_0_0_0_0
/-- Row 7 of an 8-row block: the row just above a tile. -/
abbrev rAbove : Rect S1x1x8x2048 := Rect.unit (s := S1x1x8x2048) ![0, 0, 7, 0] S1x1x1x2048.size inb_S1x1x8x2048_S1x1x1x2048_0_0_7_0
/-- Row 0 of an 8-row block: the row just below a tile. -/
abbrev rBelow : Rect S1x1x8x2048 := Rect.unit (s := S1x1x8x2048) ![0, 0, 0, 0] S1x1x1x2048.size inb_S1x1x8x2048_S1x1x1x2048_0_0_0_0
/-- A whole 256×2048 block. -/
abbrev rDrop : Rect S256x2048 := Rect.unit (s := S256x2048) ![0, 0] S256x2048.size inb_S256x2048_S256x2048_0_0

/-! ## What the body leaves in the output buffer -/

/-- The output block as a function of the five input blocks: the body's single store, whose payload
    is the arithmetic of the tile, of the two neighbouring rows and of the two blocks of draws. -/
def tileOut (x0 : Vec F S1x1x256x2048 .f32) (x1 x2 : Vec F S1x1x8x2048 .f32) (x3 : Vec F S1x1x256x2048 .f32)
    (x4 : Vec F S256x2048 .f32) : Vec F S1x1x256x2048 .f32 :=
  View.canon [⟨rTile, k0_pay1 (k0_pay2 (View.ld x0 rTile)) (k0_pay3 (View.ld x0 rTile) (View.ld x1 rAbove) (View.ld x2 rBelow))
    (View.ld x3 rTile) (View.ld x4 rDrop)⟩]

/-- The one store covers the output block. -/
theorem tileOut_cover (p0 : Vec F S1x1x256x2048 .f32) (y : S1x1x256x2048.Idx) :
    ∃ pc ∈ ([⟨rTile, p0⟩] : List (View.Piece (Elt F) S1x1x256x2048 .f32)), y ∈ pc.1.set :=
  ⟨_, List.mem_singleton_self _, View.mem_set_unit_zero (by funext a; fin_cases a <;> rfl) inb_S1x1x256x2048_S1x1x256x2048_0_0_0_0 y⟩

/-! ## The body's triple -/

set_option maxHeartbeats 1000000 in
/-- The body on whole staging buffers: inputs at read contents `x0 … x4`, the output at anything; it ends
    with the inputs as they were and the output at `tileOut`. -/
theorem sound_kernel (c : Dev nD) (E : Set ℕ) (i : grid0.Coords)
    (arg2 : Memref sig .tc .vmem S1x1x256x2048 .f32) (harg2 : arg2.IsWhole)
    (arg3 : Memref sig .tc .vmem S1x1x8x2048 .f32) (harg3 : arg3.IsWhole)
    (arg4 : Memref sig .tc .vmem S1x1x8x2048 .f32) (harg4 : arg4.IsWhole)
    (arg5 : Memref sig .tc .vmem S1x1x256x2048 .f32) (harg5 : arg5.IsWhole)
    (arg6 : Memref sig .tc .vmem S256x2048 .f32) (harg6 : arg6.IsWhole)
    (arg7 : Memref sig .tc .vmem S1x1x256x2048 .f32) (harg7 : arg7.IsWhole)
    (x0 : Vec F S1x1x256x2048 .f32) (x1 x2 : Vec F S1x1x8x2048 .f32) (x3 : Vec F S1x1x256x2048 .f32) (x4 : Vec F S256x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E
          (cc0__ising_kernel i arg2 harg2 arg3 harg3 arg4 harg4 arg5 harg5 arg6 harg6 arg7 harg7) K := by
  simp only [cc0__ising_kernel_eq_skeleton]; unfold cc0__ising_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_cover _)

end Cert.KernelIdeal.Hand

end
-- ==== Proof.Frame.lean ====
/-
  The launch: the whole program runs, and where every array ends.

  The program is one pipelined region over an 8 × 16 grid.  Three of its six windows — the tile and
  the two 8-row neighbour blocks — are windows on ONE array, the spins; the draws and the dropout
  draws have a window each, and the result has the output window.  Because one array is read through
  three windows, its points-to is dealt among them in three shares (a half, a quarter, a quarter);
  the other arrays are held whole.

  The proof data say what each staging buffer holds after the body at a point: an input buffer its
  block of the array, the output buffer `tileOut` of the five input blocks.  The body obligation is
  the triple of the body at every point, and the launch theorem for windows that may share an array
  then gives the run: every execution ends, with each array at the contents the data compute — an
  input array unchanged, the result array overwritten block by block by what the body left.
-/
import proofs.«163609_j47450798686485_2_alg».proof.Proof.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- The buffers as the region finds them: as launched, the program being the region alone. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The shares the three windows on the spin array hold of it: a half, and two quarters. -/
abbrev shareOf : Fin 6 → PosShare TreeShare
  | ⟨0, _⟩ => fullShare.left
  | ⟨1, _⟩ => fullShare.right.left
  | ⟨2, _⟩ => fullShare.right.right
  | _ => fullShare

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = tileOut (iblk m c 0 t) (iblk m c 1 t) (iblk m c 2 t) (iblk m c 3 t) (iblk m c 4 t) := by dsimp only [dats]

/-! ## What the body finds in each input buffer

An input window's current buffer holds its block of the array at every point: just fetched, or — for
the dropout window, whose block index moves only with the row of the grid — fetched at an earlier
point of the same row and left in place by the body since. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
      (fun t => by rw [after4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Run.lean ====
/-
  The run of the whole program, and the frame.

  The spin array's points-to, whole at launch, is cut in three for the three windows that read it; the
  other three arrays go to their windows whole.  With that, the launch theorem for a pipeline whose
  windows may share an array gives: every execution of the program ends, and each window's array then
  holds what the proof data compute for it.  For the five input windows that is the array as launched
  — the frame; for the output window it is the launch contents overwritten, block by block, by what
  the body left at each grid point.
-/
import proofs.«163609_j47450798686485_2_alg».proof.Proof.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry, dealt to the windows -/

/-- The four distinct buffers behind the six windows' arrays, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_arg2) ↦{fullShare} W main_arg2)
          ∗ (((c.tc : Thread nD τ).loc main_v0) ↦{fullShare} W main_v0)) := by
  unfold Pipeline.arrBufs
  exact bigSep_eq_bigSepL_of_eq [main_arg0, main_arg1, main_arg2, main_v0] (by decide) (by decide) _

/-- The windows' arrays as the proof data hold them at entry: each a whole buffer at its launch contents, at the
    window's share. -/
theorem arrays_eq (c : Dev nD) :
    (dats m 0 c).arrays (fun w => (dats m 0 c).arrAt w 0)
      = bigSep Finset.univ fun w : Fin 6 =>
          (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The spin array's points-to cut into a half and two quarters for its three windows; the rest whole. -/
theorem arrays_of_arrBufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq, arrays_eq, bigSep_W0]
  iintro ⟨Hx, Hr, Hd, Ho⟩
  ihave Hx := (pointsTo_share (PosShare.mem_left_op_right fullShare)).1 $$ Hx
  icases Hx with ⟨Hx0, Hx12⟩
  ihave Hx12 := (pointsTo_share (PosShare.mem_left_op_right fullShare.right)).1 $$ Hx12
  icases Hx12 with ⟨Hx1, Hx2⟩
  isplitl [Hx0]; · iexact Hx0
  isplitl [Hx1]; · iexact Hx1
  isplitl [Hx2]; · iexact Hx2
  isplitl [Hr]; · iexact Hr
  isplitl [Hd]; · iexact Hd
  iexact Ho

/-! ## The run -/

/-- The invariant between points is the same at every point: the scoped buffers that are no staging buffer. -/
theorem inv_eq (c : Dev nD) (t : Fin (cfg0.N + 1)) :
    (dats m 0 c).Φ t = Pipeline.scopedRest (Ix := Unit) (Name := ℕ) (U := UR sig nD τ) (Lvl := ℕ) (Val := Elt F) (cfgs 0).spec c := rfl

set_option backward.isDefEq.respectTransparency.types false in
/-- Every execution of the program ends, and every window's array then holds what the proof data compute. -/
theorem run_main : θ_run defs (onTc (τ := τ) (main (F := F))) ⟨m, fun _ => 0, ρ⟩
    (fun r => ∀ (c : Dev nD) (w : Fin cfg0.W),
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (initOf (Pipeline.cells cfgs cellOf_inj) (Pipeline.launchToks cfgs cellOf_inj)) .rfl
    (V m) (hmain m Variants.none) (arrays_of_arrBufs m)
    (fun _ => iprop(emp)) (fun _ => iprop(emp))
    (fun c => Pipeline.unscopedRest (Ix := Unit) (Name := ℕ) (U := UR sig nD τ) (Lvl := ℕ) spec0 c (V m c))
    (fun c => by iintro H; isplitr; · iempintro
                 iexact H)
    (fun c => by rw [inv_eq]; iintro ⟨-, H⟩; iexact H)
    (fun c => by rw [inv_eq]; iintro H; isplitr; · iempintro
                 iexact H)
    (fun _ _ => True)
    (fun c s' => by iintro ⟨-, -, HSI⟩; imodintro; isplitr; · ipureintro; trivial
                    iexact HSI)
    (fun s h c w => (h c).1 w)

/-! ## The frame -/

/-- The three argument arrays end as launched: each is the array of an input window, which nothing writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 3).trans (((dats m 0 c).arrAt_in 3 rfl _).trans (A_eq m c 3)),
     (h c 4).trans (((dats m 0 c).arrAt_in 4 rfl _).trans (A_eq m c 4))⟩) (run_main m ρ)

end Cert.KernelIdeal.Hand

end
-- ==== Proof.FlipRule.lean ====
/-
  The flip rule at one lattice site, in its two spellings, and that they agree on real data.

  A site holds a spin `s`; its four neighbours hold `u d l r`.  The energy change of flipping the site
  is `e = 2·s·(u + d + l + r)`, and the flip is accepted with probability `p = min (exp (-e)) 1` — which
  is `1` when `e ≤ 0` and `exp (-e)` otherwise, since `exp (-e) ≥ 1` exactly when `e ≤ 0`.  The site flips
  when its uniform draw is below `p` and its dropout draw is above one half.

  One spelling writes `p` as the minimum and the outcome as a choice between `0 - s` and `s`; the other
  writes `p` as a choice on the sign of `e`, starts the neighbour sum from `0`, and writes the outcome as
  `s · (-2·c + 1)` with `c` the acceptance bit read as a number.  Both are stated on the extended reals
  with the float words left as words; for REAL `s u d l r` they are the same extended real.
-/
import Idealize.ShloMosaic.PureOps.Ideal
import Idealize.ShloMosaic.Lib.ValueIdx

noncomputable section

namespace Cert.Flip

open Idealize.ShloMosaic

/-- The float words the two programs splat. -/
abbrev two : EReal := Ideal.ofBits .f32 0x40000000#32
abbrev one : EReal := Ideal.ofBits .f32 0x3F800000#32
abbrev zero : EReal := Ideal.ofBits .f32 0x00000000#32
abbrev half : EReal := Ideal.ofBits .f32 0x3F000000#32
abbrev mtwo : EReal := Ideal.ofBits .f32 0xC0000000#32

theorem two_eq : two = ((2 : ℝ) : EReal) := by
  simp [two, Ideal.ofBits, Ideal.ieee]
  rw [← EReal.coe_mul]; norm_num
theorem one_eq : one = ((1 : ℝ) : EReal) := by
  simp [one, Ideal.ofBits, Ideal.ieee]
  rw [← EReal.coe_mul, ← EReal.coe_one]; norm_num
theorem zero_eq : zero = ((0 : ℝ) : EReal) := by
  simp [zero, Ideal.ofBits, Ideal.ieee]
theorem mtwo_eq : mtwo = ((-2 : ℝ) : EReal) := by
  simp [mtwo, Ideal.ofBits, Ideal.ieee]
  rw [← EReal.coe_mul]; norm_num

/-- The acceptance probability as a minimum. -/
def probMin (s u d l r : EReal) : EReal :=
  min (Ideal.exp ((zero - (two * s) * (((u + d) + l) + r)) * one)) one

/-- The acceptance probability as a choice on the sign of the energy change, the sum started from zero. -/
def probSel (s u d l r : EReal) : EReal :=
  Scalar.select (Ideal.cmp .ole ((two * s) * ((((zero + u) + d) + l) + r)) zero) one
    (Ideal.exp ((-((two * s) * ((((zero + u) + d) + l) + r))) * one))

/-- The acceptance bit from a probability, the uniform draw and the dropout draw. -/
def accept (p rnd drp : EReal) : BitVec 1 :=
  IntOp.andi (Ideal.cmp .olt rnd p) (Ideal.cmp .ogt drp half)

/-- The outcome as a choice between the negated spin and the spin. -/
def flipSel (s u d l r rnd drp : EReal) : EReal :=
  Scalar.select (accept (probMin s u d l r) rnd drp) (zero - s) s

/-- The outcome as the spin times `-2·c + 1`. -/
def flipMul (s u d l r rnd drp : EReal) : EReal :=
  s * (mtwo * (((accept (probSel s u d l r) rnd drp).toNat : ℝ) : EReal) + one)

/-- On real data the two probabilities are one number. -/
theorem probSel_eq_probMin (s u d l r : ℝ) :
    probSel (s : EReal) u d l r = probMin (s : EReal) u d l r := by
  unfold probSel probMin
  rw [two_eq, one_eq, zero_eq]
  have e1 : ((((((0 : ℝ) : EReal) + (u : EReal)) + d) + l) + r) = (((u + d + l + r : ℝ)) : EReal) := by
    push_cast; simp
  have e2 : ((((u : EReal) + d) + l) + r) = (((u + d + l + r : ℝ)) : EReal) := by
    push_cast; rfl
  rw [e1, e2]
  set n : ℝ := u + d + l + r with hn
  have e3 : (((2 : ℝ) : EReal) * (s : EReal)) * (n : EReal) = ((2 * s * n : ℝ) : EReal) := by push_cast; rfl
  rw [e3]
  set e : ℝ := 2 * s * n with he
  have e4 : (((0 : ℝ) : EReal) - (e : EReal)) * ((1 : ℝ) : EReal) = ((-e : ℝ) : EReal) := by
    rw [← EReal.coe_sub, ← EReal.coe_mul]; congr 1; ring
  have e5 : (-(e : EReal)) * ((1 : ℝ) : EReal) = ((-e : ℝ) : EReal) := by
    rw [← EReal.coe_neg, ← EReal.coe_mul]; congr 1; ring
  rw [e4, e5, Ideal.exp_coe]
  by_cases h : e ≤ 0
  · have hc : Ideal.cmp .ole (e : EReal) ((0 : ℝ) : EReal) = 1#1 := by
      simp [Ideal.cmp, h]
    rw [hc, ValueIdx.select_one]
    have : (1 : ℝ) ≤ Real.exp (-e) := by
      have := Real.add_one_le_exp (-e); linarith
    rw [min_eq_right (by exact_mod_cast this)]
  · have hc : Ideal.cmp .ole (e : EReal) ((0 : ℝ) : EReal) = 0#1 := by
      simp [Ideal.cmp, h]
    rw [hc, ValueIdx.select_zero]
    have : Real.exp (-e) ≤ 1 := by
      rw [Real.exp_le_one_iff]; linarith [not_le.mp h]
    rw [min_eq_left (by exact_mod_cast this)]

/-- On real data the two outcomes are one number. -/
theorem flipMul_eq_flipSel (s u d l r : ℝ) (rnd drp : EReal) :
    flipMul (s : EReal) u d l r rnd drp = flipSel (s : EReal) u d l r rnd drp := by
  unfold flipMul flipSel
  rw [probSel_eq_probMin]
  generalize accept (probMin (s : EReal) u d l r) rnd drp = c
  rw [mtwo_eq, one_eq, zero_eq]
  rcases BitVec.eq_zero_or_eq_one c with h | h
  · subst h
    rw [ValueIdx.select_zero]
    have : ((0#1 : BitVec 1).toNat : ℝ) = 0 := by simp
    rw [this, ← EReal.coe_mul, ← EReal.coe_add, ← EReal.coe_mul]; congr 1; ring
  · subst h
    rw [ValueIdx.select_one]
    have : ((1#1 : BitVec 1).toNat : ℝ) = 1 := by simp
    rw [this, ← EReal.coe_mul, ← EReal.coe_add, ← EReal.coe_mul, ← EReal.coe_sub]; congr 1; ring

end Cert.Flip

end
-- ==== Proof.TileValue.lean ====
/-
  The body's arithmetic at one entry of the tile.

  Entry (r, c) of the 256 × 2048 output tile depends on: the tile's own entry there; the entry above —
  row r − 1 of the tile, or, for r = 0, the last row of the block above; the entry below — row r + 1,
  or, for r = 255, the first row of the block below; the entries left and right on the row, taken
  around the end; and the two draws there.  The rotations, the row masks and the shape casts of the
  body are read at the entry one at a time, and what is left is the flip rule of those seven numbers.
-/
import proofs.«163609_j47450798686485_2_alg».proof.Proof.Body
import proofs.«163609_j47450798686485_2_alg».proof.Proof.FlipRule
import Idealize.ShloMosaic.Lib.KernelVsHost
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## Layout operations of the body at an entry -/

/-- A 1×1×256×2048 block seen as a 256×2048 matrix. -/
theorem tile_as_matrix {α : Type} (x : S1x1x256x2048.Idx → α) (r : Fin 256) (c : Fin 2048) :
    shapeCast S256x2048 x shapeCasts_S1x1x256x2048_S256x2048 (ix2 r c) = x (ix4 0 0 r c) := by
  refine shapeCast_apply x _ (ix2 r c) (ix4 0 0 r c) ?_
  rw [Shape.rowMajor_val_two, Shape.rowMajor_val_four]
  show ((0 * 1 + 0) * 256 + r.val) * 2048 + c.val = r.val * 2048 + c.val
  omega

/-- A 256×2048 matrix seen as a 1×1×256×2048 block. -/
theorem matrix_as_tile {α : Type} (y : S256x2048.Idx → α) (r : Fin 256) (c : Fin 2048) :
    shapeCast S1x1x256x2048 y shapeCasts_S256x2048_S1x1x256x2048 (ix4 0 0 r c) = y (ix2 r c) := by
  refine shapeCast_apply y _ (ix4 0 0 r c) (ix2 r c) ?_
  rw [Shape.rowMajor_val_two, Shape.rowMajor_val_four]
  show r.val * 2048 + c.val = ((0 * 1 + 0) * 256 + r.val) * 2048 + c.val
  omega

/-- One row, loaded as 1×1×1×2048, cast to 1×2048 and spread over the 256 rows. -/
theorem row_spread {α : Type} (x : S1x1x1x2048.Idx → α) (r : Fin 256) (c : Fin 2048) :
    broadcastTo S256x2048 (shapeCast S1x2048 (shapeCast S1x2048 x shapeCasts_S1x1x1x2048_S1x2048) shapeCasts_S1x2048_S1x2048)
      broadcasts_S1x2048_S256x2048 (ix2 r c) = x (ix4 0 0 0 c) := by
  rw [shapeCast_self]
  refine (broadcastTo_apply _ broadcasts_S1x2048_S256x2048 (ix2 r c) (ix2 0 c) (fun a => ?_)).trans ?_
  · match a with
    | ⟨0, _⟩ => show (0 : Nat) = if (1 : Nat) = 1 then 0 else _; rw [if_pos rfl]
    | ⟨1, _⟩ => show c.val = if (2048 : Nat) = 1 then 0 else c.val; rw [if_neg (by decide)]
  · refine shapeCast_apply x _ (ix2 0 c) (ix4 0 0 0 c) ?_
    rw [Shape.rowMajor_val_two, Shape.rowMajor_val_four]
    show ((0 * 1 + 0) * 1 + 0) * 2048 + c.val = 0 * 2048 + c.val
    omega

/-- Row `k` of an 8-row block, read through the one-row rectangle at row offset `k`. -/
theorem ld_above (x : Vec Ideal S1x1x8x2048 .f32) (c : Fin 2048) :
    View.ld (Val := Elt Ideal) (e' := .f32) x rAbove (ix4 0 0 0 c) = x (ix4 0 0 7 c) := by
  show x (rAbove.emb (ix4 0 0 0 c)) = _
  congr 1; funext a; apply Fin.ext
  match a with
  | ⟨0, _⟩ => rfl
  | ⟨1, _⟩ => rfl
  | ⟨2, _⟩ => rfl
  | ⟨3, _⟩ => show 0 + 1 * c.val = c.val; omega

theorem ld_below (x : Vec Ideal S1x1x8x2048 .f32) (c : Fin 2048) :
    View.ld (Val := Elt Ideal) (e' := .f32) x rBelow (ix4 0 0 0 c) = x (ix4 0 0 0 c) := by
  show x (rBelow.emb (ix4 0 0 0 c)) = _
  congr 1; funext a; apply Fin.ext
  match a with
  | ⟨0, _⟩ => rfl
  | ⟨1, _⟩ => rfl
  | ⟨2, _⟩ => rfl
  | ⟨3, _⟩ => show 0 + 1 * c.val = c.val; omega

/-- A rotation of the rows by `k` reads row `r − k`, around the end. -/
theorem rotate_rows {α : Type} (y : S256x2048.Idx → α) (k : Nat) (hk : k < 256) (r : Fin 256) (c : Fin 2048) :
    dynamicRotate 0 (BitVec.ofNat 32 k) none y rotates_S256x2048_d0 (ix2 r c)
      = y (ix2 ⟨(r.val + 256 - k) % 256, Nat.mod_lt _ (by norm_num)⟩ c) := by
  refine dynamicRotate_apply (0 : Fin 2) _ y _ _ _ (fun b => ?_)
  have hk' : (BitVec.ofNat 32 k).toNat = k := by rw [BitVec.toNat_ofNat]; exact Nat.mod_eq_of_lt (by omega)
  match b with
  | ⟨0, _⟩ =>
    show (r.val + 256 - k) % 256 = if (0 : Fin 2) = 0 then (r.val + 256 - (BitVec.ofNat 32 k).toNat % 256) % 256 else r.val
    rw [if_pos rfl, hk', Nat.mod_eq_of_lt hk]
  | ⟨1, _⟩ =>
    show c.val = if (1 : Fin 2) = 0 then _ else c.val
    rw [if_neg (by decide)]

/-- A rotation of the columns by `k` reads column `c − k`, around the end. -/
theorem rotate_cols {α : Type} (y : S256x2048.Idx → α) (k : Nat) (hk : k < 2048) (r : Fin 256) (c : Fin 2048) :
    dynamicRotate 1 (BitVec.ofNat 32 k) none y rotates_S256x2048_d1 (ix2 r c)
      = y (ix2 r ⟨(c.val + 2048 - k) % 2048, Nat.mod_lt _ (by norm_num)⟩) := by
  refine dynamicRotate_apply (1 : Fin 2) _ y _ _ _ (fun b => ?_)
  have hk' : (BitVec.ofNat 32 k).toNat = k := by rw [BitVec.toNat_ofNat]; exact Nat.mod_eq_of_lt (by omega)
  match b with
  | ⟨0, _⟩ =>
    show r.val = if (0 : Fin 2) = 1 then _ else r.val
    rw [if_neg (by decide)]
  | ⟨1, _⟩ =>
    show (c.val + 2048 - k) % 2048 = if (1 : Fin 2) = 1 then (c.val + 2048 - (BitVec.ofNat 32 k).toNat % 2048) % 2048 else c.val
    rw [if_pos rfl, hk', Nat.mod_eq_of_lt hk]

/-- The mask "row index is `k`" chooses on the row. -/
theorem row_mask {α : Type} (k : Nat) (hk : k < 256) (A B : S256x2048.Idx → α) (r : Fin 256) (c : Fin 2048) :
    select (cmpi .eq (iota .tc S256x2048 32 [0] iota_S256x2048_d0_w32) (broadcast S256x2048 (BitVec.ofNat 32 k))) A B (ix2 r c)
      = if r.val = k then A (ix2 r c) else B (ix2 r c) := by
  rw [select_apply]
  show Scalar.select (IntOp.cmpi .eq (iota .tc S256x2048 32 [0] iota_S256x2048_d0_w32 (ix2 r c)) (BitVec.ofNat 32 k)) _ _ = _
  rw [iota_single_apply]
  show Scalar.select (BitVec.ofBool (BitVec.ofNat 32 r.val == BitVec.ofNat 32 k)) _ _ = _
  have hr : r.val < 256 := r.isLt
  by_cases h : r.val = k
  · rw [if_pos h, h]; simp [Scalar.select]
  · rw [if_neg h]
    have : (BitVec.ofNat 32 r.val == BitVec.ofNat 32 k) = false := by
      rw [beq_eq_false_iff_ne]; intro e
      have := congrArg BitVec.toNat e
      rw [BitVec.toNat_ofNat, BitVec.toNat_ofNat, Nat.mod_eq_of_lt (by omega), Nat.mod_eq_of_lt (by omega)] at this
      exact h this
    rw [this]; simp [Scalar.select]

/-! ## The output tile at an entry -/

theorem exp_apply {s : Shape} (a : FVec Ideal s .f32) (i : s.Idx) : exp a i = Ideal.exp (a i) := rfl

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The entry above (r, c): the last row of the block above for the tile's first row, else the tile's row r − 1. -/
def upOf (x0 : Vec Ideal S1x1x256x2048 .f32) (x1 : Vec Ideal S1x1x8x2048 .f32) (r : Fin 256) (c : Fin 2048) : EReal :=
  if r.val = 0 then x1 (ix4 0 0 7 c) else x0 (ix4 0 0 ⟨(r.val + 256 - 1) % 256, Nat.mod_lt _ (by norm_num)⟩ c)
/-- The entry below (r, c): the first row of the block below for the tile's last row, else the tile's row r + 1. -/
def downOf (x0 : Vec Ideal S1x1x256x2048 .f32) (x2 : Vec Ideal S1x1x8x2048 .f32) (r : Fin 256) (c : Fin 2048) : EReal :=
  if r.val = 255 then x2 (ix4 0 0 0 c) else x0 (ix4 0 0 ⟨(r.val + 256 - 255) % 256, Nat.mod_lt _ (by norm_num)⟩ c)

/-- The acceptance probability the body computes at (r, c). -/
theorem pay3_apply (x0 : Vec Ideal S1x1x256x2048 .f32) (x1 x2 : Vec Ideal S1x1x8x2048 .f32) (r : Fin 256) (c : Fin 2048) :
    k0_pay3 (F := Ideal) x0 (View.ld (Val := Elt Ideal) (e' := .f32) x1 rAbove) (View.ld (Val := Elt Ideal) (e' := .f32) x2 rBelow) (ix2 r c)
      = Cert.Flip.probMin (x0 (ix4 0 0 r c)) (upOf x0 x1 r c) (downOf x0 x2 r c)
          (x0 (ix4 0 0 r ⟨(c.val + 2048 - 1) % 2048, Nat.mod_lt _ (by norm_num)⟩))
          (x0 (ix4 0 0 r ⟨(c.val + 2048 - 2047) % 2048, Nat.mod_lt _ (by norm_num)⟩)) := by
  unfold k0_pay3 k0_pay2 Cert.Flip.probMin upOf downOf
  simp only [minimumf_apply, exp_apply, mulf_apply, subf_apply, addf_apply, broadcast_apply]
  rw [row_mask 0 (by norm_num), row_mask 255 (by norm_num), row_spread, row_spread, ld_above, ld_below,
    rotate_rows _ 1 (by norm_num), rotate_rows _ 255 (by norm_num), rotate_cols _ 1 (by norm_num), rotate_cols _ 2047 (by norm_num)]
  simp only [tile_as_matrix]
  rfl

theorem andi_apply {s : Shape} {w : Nat} (a b : IVec s w) (i : s.Idx) : andi a b i = IntOp.andi (a i) (b i) := rfl

/-- THE OUTPUT TILE AT (r, c): the flip rule of the tile's entry, the entries above, below, left and right of
    it, and the two draws there. -/
theorem tileOut_apply (x0 : Vec Ideal S1x1x256x2048 .f32) (x1 x2 : Vec Ideal S1x1x8x2048 .f32)
    (x3 : Vec Ideal S1x1x256x2048 .f32) (x4 : Vec Ideal S256x2048 .f32) (r : Fin 256) (c : Fin 2048) :
    tileOut (F := Ideal) x0 x1 x2 x3 x4 (ix4 0 0 r c)
      = Cert.Flip.flipSel (x0 (ix4 0 0 r c)) (upOf x0 x1 r c) (downOf x0 x2 r c)
          (x0 (ix4 0 0 r ⟨(c.val + 2048 - 1) % 2048, Nat.mod_lt _ (by norm_num)⟩))
          (x0 (ix4 0 0 r ⟨(c.val + 2048 - 2047) % 2048, Nat.mod_lt _ (by norm_num)⟩))
          (x3 (ix4 0 0 r c)) (x4 (ix2 r c)) := by
  unfold tileOut
  rw [View.canon_unit_zero hz4]
  simp only [View.ld_unit_zero (S := S1x1x256x2048) hz4, View.ld_unit_zero (S := S256x2048) hz2]
  unfold k0_pay1
  rw [matrix_as_tile]
  simp only [select_apply, andi_apply, cmpf_apply, subf_apply, broadcast_apply]
  rw [pay3_apply]
  unfold k0_pay2
  simp only [tile_as_matrix]
  rfl

end Cert.KernelIdeal.Hand

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.SpinStep.lean ====
/-
  One sweep of the lattice as a function of the three arrays.

  The lattice is 16 × 1 × 2048 × 2048 (batch, one channel, rows, columns) and is periodic in rows and
  in columns.  The result at a site is the flip rule of the site's spin, its four neighbours — the
  sites one row up and down and one column left and right, around the end —, the site's uniform draw,
  and the dropout draw of its (row, column).  `sweepSel` uses the spelling with the minimum and the
  choice, `sweepMul` the spelling with the sign test and the product; on an array of real spins they
  are the same array.
-/
import proofs.«163609_j47450798686485_2_alg».proof.Proof.FlipRule
import proofs.«163609_j47450798686485_2_alg».proof.Proof.LibRealEntries

noncomputable section

namespace Cert.Flip

open Idealize.ShloMosaic Idealize.ShloMosaic.ValueIdx

/-- The lattice's shape and the dropout mask's. -/
abbrev SX : Shape := ⟨4, ![16, 1, 2048, 2048]⟩
abbrev SD : Shape := ⟨2, ![2048, 2048]⟩

/-- One step back around a circle of 2048, and one step on. -/
def back (k : Fin 2048) : Fin 2048 := ⟨(k.val + 2047) % 2048, Nat.mod_lt _ (by norm_num)⟩
def fwd (k : Fin 2048) : Fin 2048 := ⟨(k.val + 1) % 2048, Nat.mod_lt _ (by norm_num)⟩

/-- The four neighbours of a site. -/
def upOf (i : SX.Idx) : SX.Idx := ix4 (i 0) (i 1) (back (i 2)) (i 3)
def downOf (i : SX.Idx) : SX.Idx := ix4 (i 0) (i 1) (fwd (i 2)) (i 3)
def leftOf (i : SX.Idx) : SX.Idx := ix4 (i 0) (i 1) (i 2) (back (i 3))
def rightOf (i : SX.Idx) : SX.Idx := ix4 (i 0) (i 1) (i 2) (fwd (i 3))
/-- The dropout draw of a site: that of its row and column. -/
def maskOf (i : SX.Idx) : SD.Idx := ix2 (i 2) (i 3)

/-- The sweep, with the minimum and the choice. -/
def sweepSel (X R : SX.Idx → EReal) (D : SD.Idx → EReal) : SX.Idx → EReal := fun i =>
  flipSel (X i) (X (upOf i)) (X (downOf i)) (X (leftOf i)) (X (rightOf i)) (R i) (D (maskOf i))

/-- The sweep, with the sign test and the product. -/
def sweepMul (X R : SX.Idx → EReal) (D : SD.Idx → EReal) : SX.Idx → EReal := fun i =>
  flipMul (X i) (X (upOf i)) (X (downOf i)) (X (leftOf i)) (X (rightOf i)) (R i) (D (maskOf i))

/-- On real spins the two sweeps are one array. -/
theorem sweepMul_eq_sweepSel (X R : SX.Idx → EReal) (D : SD.Idx → EReal) (hX : Cert.Lib.AllReal X) :
    sweepMul X R D = sweepSel X R D := by
  funext i
  unfold sweepMul sweepSel
  obtain ⟨s, hs⟩ := hX i
  obtain ⟨u, hu⟩ := hX (upOf i)
  obtain ⟨d, hd⟩ := hX (downOf i)
  obtain ⟨l, hl⟩ := hX (leftOf i)
  obtain ⟨r, hr⟩ := hX (rightOf i)
  rw [hs, hu, hd, hl, hr]
  exact flipMul_eq_flipSel s u d l r _ _

end Cert.Flip

end
-- ==== Proof.ArrayValue.lean ====
/-
  From tiles to the array: the result array after the run is one sweep of the lattice.

  Grid point (I, b) handles rows 256·I … 256·I + 255 of batch b.  Its tile window is that block of
  the spins; its "above" window is the 8-row block ending at row 256·I − 1 (around the end), whose
  last row is the row above the tile; its "below" window is the 8-row block starting at row
  256·I + 256 (around the end), whose first row is the row below the tile.  So the neighbours the body
  reads are the lattice's neighbours, and what the point writes back is its block of the sweep.  The
  128 blocks tile the array, hence the array ends as the sweep of the three argument arrays.
-/
import proofs.«163609_j47450798686485_2_alg».proof.Proof.Run
import proofs.«163609_j47450798686485_2_alg».proof.Proof.TileValue
import proofs.«163609_j47450798686485_2_alg».proof.Proof.SpinStep
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! ## A tile of the sweep -/

/-- If the five blocks are the blocks of the arrays that grid point (I, b) stages — the tile at rows
    256·I …, the row above it and the row below it around the end — then the output tile is that block of
    the sweep. -/
theorem tile_of_array (X R : Cert.Flip.SX.Idx → EReal) (D : Cert.Flip.SD.Idx → EReal)
    (x0 : Vec Ideal S1x1x256x2048 .f32) (x1 x2 : Vec Ideal S1x1x8x2048 .f32)
    (x3 : Vec Ideal S1x1x256x2048 .f32) (x4 : Vec Ideal S256x2048 .f32)
    (b : Fin 16) (I : Nat) (hI : I < 8) (r : Fin 256) (c : Fin 2048)
    (h0 : ∀ (r' : Fin 256) (c' : Fin 2048), x0 (ix4 0 0 r' c') = X (ix4 b 0 ⟨I * 256 + r'.val, by omega⟩ c'))
    (h1 : ∀ c' : Fin 2048, x1 (ix4 0 0 7 c') = X (ix4 b 0 ⟨(I * 256 + 2047) % 2048, Nat.mod_lt _ (by norm_num)⟩ c'))
    (h2 : ∀ c' : Fin 2048, x2 (ix4 0 0 0 c') = X (ix4 b 0 ⟨(I * 256 + 256) % 2048, Nat.mod_lt _ (by norm_num)⟩ c'))
    (h3 : ∀ (r' : Fin 256) (c' : Fin 2048), x3 (ix4 0 0 r' c') = R (ix4 b 0 ⟨I * 256 + r'.val, by omega⟩ c'))
    (h4 : ∀ (r' : Fin 256) (c' : Fin 2048), x4 (ix2 r' c') = D (ix2 ⟨I * 256 + r'.val, by omega⟩ c')) :
    tileOut (F := Ideal) x0 x1 x2 x3 x4 (ix4 0 0 r c)
      = Cert.Flip.sweepSel X R D (ix4 b 0 ⟨I * 256 + r.val, by omega⟩ c) := by
  have hr : r.val < 256 := r.isLt
  have hc : c.val < 2048 := c.isLt
  rw [tileOut_apply]
  unfold Cert.Flip.sweepSel
  have row : ∀ (n n' : Nat) (h : n < 2048) (h' : n' < 2048) (c' : Fin 2048), n = n' →
      X (ix4 b 0 (⟨n, h⟩ : Fin 2048) c') = X (ix4 b 0 (⟨n', h'⟩ : Fin 2048) c') := fun n n' h h' c' e => by subst e; rfl
  have eU : upOf x0 x1 r c = X (Cert.Flip.upOf (ix4 b 0 ⟨I * 256 + r.val, by omega⟩ c)) := by
    show _ = X (ix4 b 0 ⟨(I * 256 + r.val + 2047) % 2048, Nat.mod_lt _ (by norm_num)⟩ c)
    unfold upOf
    by_cases h : r.val = 0
    · rw [if_pos h, h1]; exact row _ _ _ _ c (by omega)
    · rw [if_neg h, h0]; exact row _ _ _ _ c (by show I * 256 + (r.val + 256 - 1) % 256 = (I * 256 + r.val + 2047) % 2048; omega)
  have eD : downOf x0 x2 r c = X (Cert.Flip.downOf (ix4 b 0 ⟨I * 256 + r.val, by omega⟩ c)) := by
    show _ = X (ix4 b 0 ⟨(I * 256 + r.val + 1) % 2048, Nat.mod_lt _ (by norm_num)⟩ c)
    unfold downOf
    by_cases h : r.val = 255
    · rw [if_pos h, h2]; exact row _ _ _ _ c (by omega)
    · rw [if_neg h, h0]; exact row _ _ _ _ c (by show I * 256 + (r.val + 256 - 255) % 256 = (I * 256 + r.val + 1) % 2048; omega)
  have eL : x0 (ix4 0 0 r ⟨(c.val + 2048 - 1) % 2048, Nat.mod_lt _ (by norm_num)⟩)
      = X (Cert.Flip.leftOf (ix4 b 0 ⟨I * 256 + r.val, by omega⟩ c)) := by
    show _ = X (ix4 b 0 ⟨I * 256 + r.val, by omega⟩ ⟨(c.val + 2047) % 2048, Nat.mod_lt _ (by norm_num)⟩)
    rw [h0]; congr 2
  have eR : x0 (ix4 0 0 r ⟨(c.val + 2048 - 2047) % 2048, Nat.mod_lt _ (by norm_num)⟩)
      = X (Cert.Flip.rightOf (ix4 b 0 ⟨I * 256 + r.val, by omega⟩ c)) := by
    show _ = X (ix4 b 0 ⟨I * 256 + r.val, by omega⟩ ⟨(c.val + 1) % 2048, Nat.mod_lt _ (by norm_num)⟩)
    rw [h0]; congr 2
  rw [eU, eD, eL, eR, h0, h3, h4]
  rfl

/-! ## The windows' blocks at a grid point -/

variable (m : (ℓ : Loc nD τ sig) → Buf (Elt Ideal) ℓ) (ρ : Dev nD → PrngReg)

/-- The printed index maps, decided over the 128 grid points, against the output window's: the tile and the
    draws move with the output block; the block above ends at the row before the tile and the block below starts
    at the row after it, both around the end; the dropout block is the output block's rows. -/
theorem idx_facts : ∀ t : Fin cfg0.N,
    (win0_0.index t (0 : Fin 4) = win0_5.index t (0 : Fin 4) ∧ win0_0.index t (1 : Fin 4) = 0
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = 0
      ∧ win0_1.index t (2 : Fin 4) * 8 + 7 = (win0_5.index t (2 : Fin 4) * 256 + 2047) % 2048 ∧ win0_1.index t (3 : Fin 4) = 0)
    ∧ (win0_2.index t (0 : Fin 4) = win0_5.index t (0 : Fin 4) ∧ win0_2.index t (1 : Fin 4) = 0
      ∧ win0_2.index t (2 : Fin 4) * 8 = (win0_5.index t (2 : Fin 4) * 256 + 256) % 2048 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 2) = win0_5.index t (2 : Fin 4) ∧ win0_4.index t (1 : Fin 2) = 0)
    ∧ (win0_5.index t (0 : Fin 4) < 16 ∧ win0_5.index t (1 : Fin 4) = 0
      ∧ win0_5.index t (2 : Fin 4) < 8 ∧ win0_5.index t (3 : Fin 4) = 0) :=
  (by decide +kernel : ∀ t : Fin grid0.N, _)

/-- Every (batch, row block) is some grid point's output block. -/
theorem idx_onto : ∀ (q0 : Fin 16) (q2 : Fin 8), ∃ t : Fin cfg0.N, win0_5.index t = ![q0.val, 0, q2.val, 0] :=
  (by decide +kernel : ∀ (q0 : Fin 16) (q2 : Fin 8), ∃ t : Fin grid0.N, win0_5.index t = ![q0.val, 0, q2.val, 0])

/-- WHAT POINT `t` WRITES BACK is block `t` of the sweep of the argument arrays. -/
theorem flushed_eq (c : Dev nD) (t : Fin cfg0.N) :
    (dats m 0 c).flushed 5 t = ((cfg0.win 5).blk t).view.read (Elt Ideal)
      (Cert.Flip.sweepSel (V m c main_arg0) (V m c main_arg1) (V m c main_arg2)) := by
  show (cfg0.win 5).cut (grid0.coords t) ((dats m 0 c).after 5 t) = _
  rw [after5]
  obtain ⟨⟨a0, a1, a2, a3⟩, ⟨b0, b1, b2, b3⟩, ⟨c0, c1, c2, c3⟩, ⟨d0, d1, d2, d3⟩, ⟨e0, e1⟩, ⟨o0, o1, o2, o3⟩⟩ := idx_facts t
  show (tileOut (F := Ideal) (iblk m c 0 t) (iblk m c 1 t) (iblk m c 2 t) (iblk m c 3 t) (iblk m c 4 t) : S1x1x256x2048.Idx → EReal)
      = fun j => Cert.Flip.sweepSel (V m c main_arg0) (V m c main_arg1) (V m c main_arg2) (((cfg0.win 5).blk t).view.emb j)
  funext j
  obtain ⟨j0, j1, r, cc, rfl⟩ : ∃ (j0 j1 : Fin 1) (r : Fin 256) (cc : Fin 2048), j = ix4 j0 j1 r cc :=
    ⟨j 0, j 1, j 2, j 3, eq_ix4 j⟩
  obtain rfl : j0 = 0 := Subsingleton.elim _ _
  obtain rfl : j1 = 0 := Subsingleton.elim _ _
  have hr : r.val < 256 := r.isLt
  have hemb : ((cfg0.win 5).blk t).view.emb (ix4 0 0 r cc)
      = ix4 (⟨win0_5.index t (0 : Fin 4), o0⟩ : Fin 16) (0 : Fin 1) (⟨win0_5.index t (2 : Fin 4) * 256 + r.val, by omega⟩ : Fin 2048) cc := by
    funext a; apply Fin.ext
    match a with
    | ⟨0, _⟩ => show win0_5.index t (0 : Fin 4) * 1 + 1 * 0 = win0_5.index t (0 : Fin 4); omega
    | ⟨1, _⟩ => show win0_5.index t (1 : Fin 4) * 1 + 1 * 0 = 0; omega
    | ⟨2, _⟩ => show win0_5.index t (2 : Fin 4) * 256 + 1 * r.val = win0_5.index t (2 : Fin 4) * 256 + r.val; omega
    | ⟨3, _⟩ => show win0_5.index t (3 : Fin 4) * 2048 + 1 * cc.val = cc.val; omega
  rw [hemb]
  refine tile_of_array (V m c main_arg0) (V m c main_arg1) (V m c main_arg2) (iblk m c 0 t) (iblk m c 1 t) (iblk m c 2 t)
    (iblk m c 3 t) (iblk m c 4 t) ⟨win0_5.index t (0 : Fin 4), o0⟩ (win0_5.index t (2 : Fin 4)) o2 r cc ?_ ?_ ?_ ?_ ?_
  · intro r' c'
    have hr' : r'.val < 256 := r'.isLt
    show V m c main_arg0 (((cfg0.win 0).blk t).view.emb (ix4 0 0 r' c')) = _
    congr 1; funext a; apply Fin.ext
    match a with
    | ⟨0, _⟩ => show win0_0.index t (0 : Fin 4) * 1 + 1 * 0 = win0_5.index t (0 : Fin 4); omega
    | ⟨1, _⟩ => show win0_0.index t (1 : Fin 4) * 1 + 1 * 0 = 0; omega
    | ⟨2, _⟩ => show win0_0.index t (2 : Fin 4) * 256 + 1 * r'.val = win0_5.index t (2 : Fin 4) * 256 + r'.val; omega
    | ⟨3, _⟩ => show win0_0.index t (3 : Fin 4) * 2048 + 1 * c'.val = c'.val; omega
  · intro c'
    show V m c main_arg0 (((cfg0.win 1).blk t).view.emb (ix4 0 0 7 c')) = _
    congr 1; funext a; apply Fin.ext
    match a with
    | ⟨0, _⟩ => show win0_1.index t (0 : Fin 4) * 1 + 1 * 0 = win0_5.index t (0 : Fin 4); omega
    | ⟨1, _⟩ => show win0_1.index t (1 : Fin 4) * 1 + 1 * 0 = 0; omega
    | ⟨2, _⟩ => show win0_1.index t (2 : Fin 4) * 8 + 1 * 7 = (win0_5.index t (2 : Fin 4) * 256 + 2047) % 2048; omega
    | ⟨3, _⟩ => show win0_1.index t (3 : Fin 4) * 2048 + 1 * c'.val = c'.val; omega
  · intro c'
    show V m c main_arg0 (((cfg0.win 2).blk t).view.emb (ix4 0 0 0 c')) = _
    congr 1; funext a; apply Fin.ext
    match a with
    | ⟨0, _⟩ => show win0_2.index t (0 : Fin 4) * 1 + 1 * 0 = win0_5.index t (0 : Fin 4); omega
    | ⟨1, _⟩ => show win0_2.index t (1 : Fin 4) * 1 + 1 * 0 = 0; omega
    | ⟨2, _⟩ => show win0_2.index t (2 : Fin 4) * 8 + 1 * 0 = (win0_5.index t (2 : Fin 4) * 256 + 256) % 2048; omega
    | ⟨3, _⟩ => show win0_2.index t (3 : Fin 4) * 2048 + 1 * c'.val = c'.val; omega
  · intro r' c'
    have hr' : r'.val < 256 := r'.isLt
    show V m c main_arg1 (((cfg0.win 3).blk t).view.emb (ix4 0 0 r' c')) = _
    congr 1; funext a; apply Fin.ext
    match a with
    | ⟨0, _⟩ => show win0_3.index t (0 : Fin 4) * 1 + 1 * 0 = win0_5.index t (0 : Fin 4); omega
    | ⟨1, _⟩ => show win0_3.index t (1 : Fin 4) * 1 + 1 * 0 = 0; omega
    | ⟨2, _⟩ => show win0_3.index t (2 : Fin 4) * 256 + 1 * r'.val = win0_5.index t (2 : Fin 4) * 256 + r'.val; omega
    | ⟨3, _⟩ => show win0_3.index t (3 : Fin 4) * 2048 + 1 * c'.val = c'.val; omega
  · intro r' c'
    have hr' : r'.val < 256 := r'.isLt
    show V m c main_arg2 (((cfg0.win 4).blk t).view.emb (ix2 r' c')) = _
    congr 1; funext a; apply Fin.ext
    match a with
    | ⟨0, _⟩ => show win0_4.index t (0 : Fin 2) * 256 + 1 * r'.val = win0_5.index t (2 : Fin 4) * 256 + r'.val; omega
    | ⟨1, _⟩ => show win0_4.index t (1 : Fin 2) * 2048 + 1 * c'.val = c'.val; omega

/-! ## The blocks tile the array -/

theorem mem_blk (t : Fin cfg0.N) (i : S16x1x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v0).slice (win0_5.rect t)).set ↔ _
  rw [View.set_slice_whole, Rect.mem_set_unit]
  exact Iff.rfl

/-- Every index of the result array is in the block of the point that handles its batch and its 256 rows. -/
theorem cover (i : S16x1x2048x2048.Idx) :
    ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 2048 := (i 2).isLt
  have hi3 : (i 3).val < 2048 := (i 3).isLt
  obtain ⟨t, ht⟩ := idx_onto ⟨(i 0).val, hi0⟩ ⟨(i 2).val / 256, by omega⟩
  have q0 : win0_5.index t (0 : Fin 4) = (i 0).val := congrFun ht 0
  have q1 : win0_5.index t (1 : Fin 4) = 0 := congrFun ht 1
  have q2 : win0_5.index t (2 : Fin 4) = (i 2).val / 256 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 2048 ≤ (i 3).val ∧ (i 3).val < win0_5.index t (3 : Fin 4) * 2048 + 2048; omega

/-! ## The array after the run, and the run -/

/-- THE RESULT ARRAY after the run is the sweep of the three argument arrays. -/
theorem final (c : Dev nD) : (dats m 0 c).arrAt 5 cfg0.N
    = Cert.Flip.sweepSel (m ((c.tc : Thread nD τ).loc main_arg0)) (m ((c.tc : Thread nD τ).loc main_arg1)) (m ((c.tc : Thread nD τ).loc main_arg2)) :=
  (dats m 0 c).arrAt_eq_of_cover 5 _ (fun t _ => flushed_eq m c t) cover

/-- Every execution of the idealized kernel ends with the result array at the sweep of the arguments, and the
    arguments unchanged. -/
theorem run_value : θ_run defs (onTc (τ := τ) (main (F := Ideal))) ⟨m, fun _ => 0, ρ⟩ fun r => ∀ c : Dev nD,
      r.2.mem ((c.tc : Thread nD τ).loc main_v0)
        = Cert.Flip.sweepSel (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c 5).trans (final m c),
     (h c 0).trans (((dats m 0 c).arrAt_in 0 rfl _).trans (A_eq m c 0)),
     (h c 3).trans (((dats m 0 c).arrAt_in 3 rfl _).trans (A_eq m c 3)),
     (h c 4).trans (((dats m 0 c).arrAt_in 4 rfl _).trans (A_eq m c 4))⟩) (run_main m ρ)

end Cert.KernelIdeal.Hand

end
-- ==== Proof.RefValue.lean ====
/-
  The reference's result array is one sweep of the lattice.

  The reference builds the four neighbour arrays by rolling the spin array one step along the rows and
  along the columns, each roll a join of two slices: one row (or column) taken from the far end and
  the other 2047 shifted by one.  Read at an index, a roll is the spin array at the neighbouring site
  around the end.  The rest of the reference is pointwise, so at every index its result is the flip
  rule — in the spelling with the sign test and the product — of the site, its neighbours and its draws.
-/
import proofs.«163609_j47450798686485_2_alg».proof.Proof.Gen.ReferenceIdeal.Read
import proofs.«163609_j47450798686485_2_alg».proof.Proof.SpinStep
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The four rolls at an index -/

/-- The roll down the rows by one reads the row before, around the end. -/
theorem roll_rows_down (X : S16x1x2048x2048.Idx → EReal) (b : Fin 16) (ch : Fin 1) (r w : Fin 2048) :
    val_main_v1 (F := Ideal) X (ix4 b ch r w) = X (ix4 b ch (Cert.Flip.back r) w) := by
  have hr : r.val < 2048 := r.isLt
  unfold val_main_v1
  by_cases h : r.val = 0
  · refine (concatenate_pair_apply_left (t := S16x1x2048x2048) (s₁ := S16x1x1x2048) (s₂ := S16x1x2047x2048) (2 : Fin 4) (val_main_call0_v0 (F := Ideal) X) (val_main_call0_v1 (F := Ideal) X) concatenates_S16x1x1x2048_S16x1x2047x2048_S16x1x2048x2048_d2
      (ix4 b ch r w) rfl (ix4 b ch (0 : Fin 1) w : S16x1x1x2048.Idx) (fun a => ?_)).trans ?_
    · match a with
      | ⟨0, _⟩ => rfl
      | ⟨1, _⟩ => rfl
      | ⟨2, _⟩ => show (0 : Nat) = r.val; omega
      | ⟨3, _⟩ => rfl
    · rw [val_main_call0_v0_apply]; congr 1; funext a; apply Fin.ext
      match a with
      | ⟨0, _⟩ => rfl
      | ⟨1, _⟩ => rfl
      | ⟨2, _⟩ => show 2047 + 0 = (r.val + 2047) % 2048; omega
      | ⟨3, _⟩ => rfl
  · refine (concatenate_pair_apply_right (t := S16x1x2048x2048) (s₁ := S16x1x1x2048) (s₂ := S16x1x2047x2048) (2 : Fin 4) (val_main_call0_v0 (F := Ideal) X) (val_main_call0_v1 (F := Ideal) X) concatenates_S16x1x1x2048_S16x1x2047x2048_S16x1x2048x2048_d2
      (ix4 b ch r w) rfl rfl (ix4 b ch (⟨r.val - 1, by omega⟩ : Fin 2047) w : S16x1x2047x2048.Idx) (fun a ha => ?_) ?_).trans ?_
    · match a with
      | ⟨0, _⟩ => rfl
      | ⟨1, _⟩ => rfl
      | ⟨2, _⟩ => exact absurd rfl ha
      | ⟨3, _⟩ => rfl
    · show r.val - 1 + 1 = r.val; omega
    · rw [val_main_call0_v1_apply]; congr 1; funext a; apply Fin.ext
      match a with
      | ⟨0, _⟩ => rfl
      | ⟨1, _⟩ => rfl
      | ⟨2, _⟩ => show r.val - 1 = (r.val + 2047) % 2048; omega
      | ⟨3, _⟩ => rfl

/-- The roll up the rows by one reads the row after, around the end. -/
theorem roll_rows_up (X : S16x1x2048x2048.Idx → EReal) (b : Fin 16) (ch : Fin 1) (r w : Fin 2048) :
    val_main_v3 (F := Ideal) X (ix4 b ch r w) = X (ix4 b ch (Cert.Flip.fwd r) w) := by
  have hr : r.val < 2048 := r.isLt
  unfold val_main_v3
  by_cases h : r.val < 2047
  · refine (concatenate_pair_apply_left (t := S16x1x2048x2048) (s₁ := S16x1x2047x2048) (s₂ := S16x1x1x2048) (2 : Fin 4) (val_main_call1_v0 (F := Ideal) X) (val_main_call1_v1 (F := Ideal) X) concatenates_S16x1x2047x2048_S16x1x1x2048_S16x1x2048x2048_d2
      (ix4 b ch r w) rfl (ix4 b ch (⟨r.val, h⟩ : Fin 2047) w : S16x1x2047x2048.Idx) (fun a => ?_)).trans ?_
    · match a with
      | ⟨0, _⟩ => rfl
      | ⟨1, _⟩ => rfl
      | ⟨2, _⟩ => rfl
      | ⟨3, _⟩ => rfl
    · rw [val_main_call1_v0_apply]; congr 1; funext a; apply Fin.ext
      match a with
      | ⟨0, _⟩ => rfl
      | ⟨1, _⟩ => rfl
      | ⟨2, _⟩ => show 1 + r.val = (r.val + 1) % 2048; omega
      | ⟨3, _⟩ => rfl
  · refine (concatenate_pair_apply_right (t := S16x1x2048x2048) (s₁ := S16x1x2047x2048) (s₂ := S16x1x1x2048) (2 : Fin 4) (val_main_call1_v0 (F := Ideal) X) (val_main_call1_v1 (F := Ideal) X) concatenates_S16x1x2047x2048_S16x1x1x2048_S16x1x2048x2048_d2
      (ix4 b ch r w) rfl rfl (ix4 b ch (0 : Fin 1) w : S16x1x1x2048.Idx) (fun a ha => ?_) ?_).trans ?_
    · match a with
      | ⟨0, _⟩ => rfl
      | ⟨1, _⟩ => rfl
      | ⟨2, _⟩ => exact absurd rfl ha
      | ⟨3, _⟩ => rfl
    · show 0 + 2047 = r.val; omega
    · rw [val_main_call1_v1_apply]; congr 1; funext a; apply Fin.ext
      match a with
      | ⟨0, _⟩ => rfl
      | ⟨1, _⟩ => rfl
      | ⟨2, _⟩ => show 0 = (r.val + 1) % 2048; omega
      | ⟨3, _⟩ => rfl

/-- The roll right along the columns by one reads the column before, around the end. -/
theorem roll_cols_right (X : S16x1x2048x2048.Idx → EReal) (b : Fin 16) (ch : Fin 1) (r w : Fin 2048) :
    val_main_v5 (F := Ideal) X (ix4 b ch r w) = X (ix4 b ch r (Cert.Flip.back w)) := by
  have hw : w.val < 2048 := w.isLt
  unfold val_main_v5
  by_cases h : w.val = 0
  · refine (concatenate_pair_apply_left (t := S16x1x2048x2048) (s₁ := S16x1x2048x1) (s₂ := S16x1x2048x2047) (3 : Fin 4) (val_main_call2_v0 (F := Ideal) X) (val_main_call2_v1 (F := Ideal) X) concatenates_S16x1x2048x1_S16x1x2048x2047_S16x1x2048x2048_d3
      (ix4 b ch r w) rfl (ix4 b ch r (0 : Fin 1) : S16x1x2048x1.Idx) (fun a => ?_)).trans ?_
    · match a with
      | ⟨0, _⟩ => rfl
      | ⟨1, _⟩ => rfl
      | ⟨2, _⟩ => rfl
      | ⟨3, _⟩ => show (0 : Nat) = w.val; omega
    · rw [val_main_call2_v0_apply]; congr 1; funext a; apply Fin.ext
      match a with
      | ⟨0, _⟩ => rfl
      | ⟨1, _⟩ => rfl
      | ⟨2, _⟩ => rfl
      | ⟨3, _⟩ => show 2047 + 0 = (w.val + 2047) % 2048; omega
  · refine (concatenate_pair_apply_right (t := S16x1x2048x2048) (s₁ := S16x1x2048x1) (s₂ := S16x1x2048x2047) (3 : Fin 4) (val_main_call2_v0 (F := Ideal) X) (val_main_call2_v1 (F := Ideal) X) concatenates_S16x1x2048x1_S16x1x2048x2047_S16x1x2048x2048_d3
      (ix4 b ch r w) rfl rfl (ix4 b ch r (⟨w.val - 1, by omega⟩ : Fin 2047) : S16x1x2048x2047.Idx) (fun a ha => ?_) ?_).trans ?_
    · match a with
      | ⟨0, _⟩ => rfl
      | ⟨1, _⟩ => rfl
      | ⟨2, _⟩ => rfl
      | ⟨3, _⟩ => exact absurd rfl ha
    · show w.val - 1 + 1 = w.val; omega
    · rw [val_main_call2_v1_apply]; congr 1; funext a; apply Fin.ext
      match a with
      | ⟨0, _⟩ => rfl
      | ⟨1, _⟩ => rfl
      | ⟨2, _⟩ => rfl
      | ⟨3, _⟩ => show w.val - 1 = (w.val + 2047) % 2048; omega

/-- The roll left along the columns by one reads the column after, around the end. -/
theorem roll_cols_left (X : S16x1x2048x2048.Idx → EReal) (b : Fin 16) (ch : Fin 1) (r w : Fin 2048) :
    val_main_v7 (F := Ideal) X (ix4 b ch r w) = X (ix4 b ch r (Cert.Flip.fwd w)) := by
  have hw : w.val < 2048 := w.isLt
  unfold val_main_v7
  by_cases h : w.val < 2047
  · refine (concatenate_pair_apply_left (t := S16x1x2048x2048) (s₁ := S16x1x2048x2047) (s₂ := S16x1x2048x1) (3 : Fin 4) (val_main_call3_v0 (F := Ideal) X) (val_main_call3_v1 (F := Ideal) X) concatenates_S16x1x2048x2047_S16x1x2048x1_S16x1x2048x2048_d3
      (ix4 b ch r w) rfl (ix4 b ch r (⟨w.val, h⟩ : Fin 2047) : S16x1x2048x2047.Idx) (fun a => ?_)).trans ?_
    · match a with
      | ⟨0, _⟩ => rfl
      | ⟨1, _⟩ => rfl
      | ⟨2, _⟩ => rfl
      | ⟨3, _⟩ => rfl
    · rw [val_main_call3_v0_apply]; congr 1; funext a; apply Fin.ext
      match a with
      | ⟨0, _⟩ => rfl
      | ⟨1, _⟩ => rfl
      | ⟨2, _⟩ => rfl
      | ⟨3, _⟩ => show 1 + w.val = (w.val + 1) % 2048; omega
  · refine (concatenate_pair_apply_right (t := S16x1x2048x2048) (s₁ := S16x1x2048x2047) (s₂ := S16x1x2048x1) (3 : Fin 4) (val_main_call3_v0 (F := Ideal) X) (val_main_call3_v1 (F := Ideal) X) concatenates_S16x1x2048x2047_S16x1x2048x1_S16x1x2048x2048_d3
      (ix4 b ch r w) rfl rfl (ix4 b ch r (0 : Fin 1) : S16x1x2048x1.Idx) (fun a ha => ?_) ?_).trans ?_
    · match a with
      | ⟨0, _⟩ => rfl
      | ⟨1, _⟩ => rfl
      | ⟨2, _⟩ => rfl
      | ⟨3, _⟩ => exact absurd rfl ha
    · show 0 + 2047 = w.val; omega
    · rw [val_main_call3_v1_apply]; congr 1; funext a; apply Fin.ext
      match a with
      | ⟨0, _⟩ => rfl
      | ⟨1, _⟩ => rfl
      | ⟨2, _⟩ => rfl
      | ⟨3, _⟩ => show 0 = (w.val + 1) % 2048; omega

/-! ## The reference's result -/

/-- THE REFERENCE'S RESULT is the sweep, in the spelling with the sign test and the product. -/
theorem result_eq (X R : S16x1x2048x2048.Idx → EReal) (D : S2048x2048.Idx → EReal) :
    val_main_v31 (F := Ideal) X R D = Cert.Flip.sweepMul X R D := by
  funext i
  obtain ⟨b, ch, r, w, rfl⟩ : ∃ (b : Fin 16) (ch : Fin 1) (r w : Fin 2048), i = ix4 b ch r w := ⟨i 0, i 1, i 2, i 3, eq_ix4 i⟩
  rw [val_main_v31_apply, val_main_v30_apply, val_main_v29_apply, val_main_cst_6_apply, val_main_v28_apply, val_main_v27_apply,
    val_main_cst_5_apply, val_main_v26_apply, val_main_v25_apply, val_main_v24_apply, val_main_v22_apply, val_main_v21_apply,
    val_main_v20_apply, val_main_cst_4_apply, val_main_v23_apply, val_main_v19_apply, val_main_v18_apply, val_main_v17_apply,
    val_main_v16_apply, val_main_cst_3_apply, val_main_v15_apply, val_main_v14_apply, val_main_cst_2_apply, val_main_v13_apply,
    val_main_v12_apply, val_main_cst_1_apply, val_main_v11_apply, val_main_v10_apply, val_main_v9_apply, val_main_cst_0_apply,
    val_main_v8_apply, val_main_v6_apply, val_main_v4_apply, val_main_v2_apply, val_main_v0_apply, val_main_cst_apply,
    roll_rows_down, roll_rows_up, roll_cols_right, roll_cols_left]
  have hD : idx_main_v22 (idx_main_v24 (ix4 b ch r w)) = ix2 r w := by
    funext a; match a with | ⟨0, _⟩ => rfl | ⟨1, _⟩ => rfl
  rw [hD]
  rfl

end Cert.ReferenceIdeal.RefValue

end
-- ==== Proof.Finite.lean ====
/-
  From the precondition to real spins.

  The precondition is the conjunction of three tests "every entry has absolute value below +∞", one
  per argument array.  Its first conjunct says that every entry of the spin array is a real number,
  which is what the agreement of the two spellings of the flip rule needs.
-/
import proofs.«163609_j47450798686485_2_alg».proof.Pre_finite_inputs
import proofs.«163609_j47450798686485_2_alg».proof.Proof.Gen.Pre_finite_inputs
import proofs.«163609_j47450798686485_2_alg».proof.Proof.LibRealEntries
import Idealize.ShloMosaic.Lib.Affine
import Idealize.ShloMosaic.Lib.ValueIdx
import Idealize.ShloMosaic.Lib.Pipeline.Value

noncomputable section

namespace Cert.Pre_finite_inputs.Hand

open Idealize.ShloMosaic Cert.Pre_finite_inputs Cert.Pre_finite_inputs.Gen

instance : Subsingleton S_.Idx := ⟨fun a b => funext fun d => d.elim0⟩

/-- If the precondition's function answers one, every entry of the first argument array is a real. -/
theorem allReal_spins (x0 x1 : FVec Ideal S16x1x2048x2048 .f32) (x2 : FVec Ideal S2048x2048 .f32)
    (h : Cert.Pre_finite_inputs.fn (F := Ideal) x0 x1 x2 = fun _ => 1#1) : Cert.Lib.AllReal x0 := by
  have h0 := congrFun h ValueIdx.ix0
  dsimp only [Cert.Pre_finite_inputs.fn] at h0
  have h1 := (IntOp.andi_eq_one.mp h0).1
  have h2 := (IntOp.andi_eq_one.mp h1).1
  refine Cert.Lib.allReal_of_all_abs_lt x0 _ (fun i => ?_) _ _ _ ValueIdx.ix0 h2
  exact (broadcastInDim_apply _ _ _ i ValueIdx.ix0 (fun a => a.elim0)).trans rfl

end Cert.Pre_finite_inputs.Hand

end
-- ==== Proof.lean ====
/-
  The certificate: an Ising-type spin-flip sweep on a periodic 2048 × 2048 lattice, 16 batches.

  The kernel handles the lattice in 256-row tiles.  Its body sees the tile and, through two extra
  8-row windows on the same array, the row above and the row below the tile (around the end); inside
  the tile the neighbours are rotations of the tile.  At each site it forms the energy change
  e = 2·s·(up + down + left + right), the acceptance probability min (exp (−e)) 1, and flips the spin
  when the site's uniform draw is below that probability and its dropout draw is above one half.  The
  reference rolls the whole array four ways, writes the probability as "1 if e ≤ 0 else exp (−e)" and
  the outcome as s·(−2·c + 1).

  * Frames.  The kernel, at the machine's floats and at the extended reals, runs to the end and leaves
    its three arguments as they were: one run of the pipelined region, the spin array shared among its
    three windows.  The reference's frame is its run with the result dropped.
  * The idealization changed no operation, so there is nothing to preserve.
  * Equal results.  The kernel's result array is the sweep in the first spelling (tile by tile, the tiles
    covering the array); the reference's is the sweep in the second; the precondition makes every spin
    a real number, and on real spins the two spellings are the same array, because exp (−e) ≥ 1 exactly
    when e ≤ 0.
-/
import proofs.«163609_j47450798686485_2_alg».proof.Defs
import proofs.«163609_j47450798686485_2_alg».proof.Proof.Gen.Kernel
import proofs.«163609_j47450798686485_2_alg».proof.Proof.Gen.Kernel.Skeleton
import proofs.«163609_j47450798686485_2_alg».proof.Proof.Gen.Kernel.Launch
import proofs.«163609_j47450798686485_2_alg».proof.Proof.Gen.Kernel.Points
import proofs.«163609_j47450798686485_2_alg».proof.Proof.Gen.KernelIdeal
import proofs.«163609_j47450798686485_2_alg».proof.Proof.Gen.KernelIdeal.Skeleton
import proofs.«163609_j47450798686485_2_alg».proof.Proof.Gen.KernelIdeal.Launch
import proofs.«163609_j47450798686485_2_alg».proof.Proof.Gen.KernelIdeal.Points
import proofs.«163609_j47450798686485_2_alg».proof.Proof.Gen.ReferenceIdeal
import proofs.«163609_j47450798686485_2_alg».proof.Proof.Gen.ReferenceIdeal.Read
import proofs.«163609_j47450798686485_2_alg».proof.Proof.Gen.Pre_finite_inputs
import proofs.«163609_j47450798686485_2_alg».proof.Proof.KRun
import proofs.«163609_j47450798686485_2_alg».proof.Proof.ArrayValue
import proofs.«163609_j47450798686485_2_alg».proof.Proof.RefValue
import proofs.«163609_j47450798686485_2_alg».proof.Proof.Finite
import Idealize.ShloMosaic.Adequacy
import Idealize.ShloMosaic.Init

noncomputable section

namespace Cert.Proof

open Idealize.ShloMosaic Idealize.SL.Sem

/-- The kernel at the machine's floats runs and leaves its arguments unchanged. -/
theorem frame_kernel : Cert.frame_Kernel := fun m ρ _ => Cert.Kernel.Hand.frame m ρ

/-- So does the kernel read on the extended reals. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the sweep of the arguments: the kernel
    in the spelling with the minimum, the reference in the spelling with the sign test, which agree because the
    precondition makes the spins real. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2.1, (hagree c).2.2]
  exact Cert.Flip.sweepMul_eq_sweepSel _ _ _ (Cert.Pre_finite_inputs.Hand.allReal_spins _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
